-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩
abbrev S100000x64 : Shape := ⟨2, ![100000, 64]⟩
abbrev S10000x64 : Shape := ⟨2, ![10000, 64]⟩
abbrev S700000x64 : Shape := ⟨2, ![700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 98
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S100000, .i32⟩
  | .hbm, ⟨12, _⟩ => ⟨S700000, .i32⟩
  | .hbm, ⟨13, _⟩ => ⟨S700000, .i32⟩
  | .hbm, ⟨14, _⟩ => ⟨S_, .f32⟩
  | .hbm, ⟨15, _⟩ => ⟨S700000, .f32⟩
  | .hbm, ⟨16, _⟩ => ⟨S_, .f32⟩
  | .hbm, ⟨17, _⟩ => ⟨S100000, .f32⟩
  | .hbm, ⟨18, _⟩ => ⟨S700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S700000, .i32⟩
  | .hbm, ⟨26, _⟩ => ⟨S700000, .i1⟩
  | .hbm, ⟨27, _⟩ => ⟨S_, .i32⟩
  | .hbm, ⟨28, _⟩ => ⟨S700000, .i32⟩
  | .hbm, ⟨29, _⟩ => ⟨S700000, .i32⟩
  | .hbm, ⟨30, _⟩ => ⟨S700000, .i32⟩
  | .hbm, ⟨31, _⟩ => ⟨S700000x1, .i32⟩
  | .hbm, ⟨32, _⟩ => ⟨S700000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S700000, .f32⟩
  | .hbm, ⟨43, _⟩ => ⟨S100000x128, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000x128, .f32⟩
  | .hbm, ⟨53, _⟩ => ⟨S700000x1, .f32⟩
  | .hbm, ⟨54, _⟩ => ⟨S700000x128, .f32⟩
  | .hbm, ⟨55, _⟩ => ⟨S700000x128, .f32⟩
  | .hbm, ⟨56, _⟩ => ⟨S_, .f32⟩
  | .hbm, ⟨57, _⟩ => ⟨S100000x128, .f32⟩
  | .hbm, ⟨58, _⟩ => ⟨S700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S700000, .i32⟩
  | .hbm, ⟨65, _⟩ => ⟨S700000, .i1⟩
  | .hbm, ⟨66, _⟩ => ⟨S_, .i32⟩
  | .hbm, ⟨67, _⟩ => ⟨S700000, .i32⟩
  | .hbm, ⟨68, _⟩ => ⟨S700000, .i32⟩
  | .hbm, ⟨69, _⟩ => ⟨S700000, .i32⟩
  | .hbm, ⟨70, _⟩ => ⟨S700000x1, .i32⟩
  | .hbm, ⟨71, _⟩ => ⟨S700000x64, .f32⟩
  | .hbm, ⟨72, _⟩ => ⟨S700000x1, .f32⟩
  | .hbm, ⟨73, _⟩ => ⟨S700000x64, .f32⟩
  | .hbm, ⟨74, _⟩ => ⟨S700000x64, .f32⟩
  | .hbm, ⟨75, _⟩ => ⟨S_, .f32⟩
  | .hbm, ⟨76, _⟩ => ⟨S100000x64, .f32⟩
  | .hbm, ⟨77, _⟩ => ⟨S700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S_, .f32⟩
  | .hbm, ⟨82, _⟩ => ⟨S64x64, .f32⟩
  | .hbm, ⟨83, _⟩ => ⟨S100000x1, .i32⟩
  | .hbm, ⟨84, _⟩ => ⟨S64x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S64, .f32⟩
  | .hbm, ⟨89, _⟩ => ⟨S100000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x64, .f32⟩
  | .hbm, ⟨96, _⟩ => ⟨S64x64, .f32⟩
  | .hbm, ⟨97, _⟩ => ⟨S64x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S10000x128_S128x64_S10000x64_1_0_0_1_n_n_wf : DotDims.WF S10000x128 S128x64 S10000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v73) S64x64.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S100000, .i32⟩
  | 8 => ⟨S1x600000, .i32⟩
  | 9 => ⟨S600000, .i32⟩
  | 10 => ⟨S700000, .i32⟩
  | 11 => ⟨S1x600000, .i32⟩
  | 12 => ⟨S600000, .i32⟩
  | 13 => ⟨S700000, .i32⟩
  | 14 => ⟨S_, .f32⟩
  | 15 => ⟨S700000, .f32⟩
  | 16 => ⟨S_, .f32⟩
  | 17 => ⟨S100000, .f32⟩
  | 18 => ⟨S700000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S700000, .i32⟩
  | 26 => ⟨S700000, .i1⟩
  | 27 => ⟨S_, .i32⟩
  | 28 => ⟨S700000, .i32⟩
  | 29 => ⟨S700000, .i32⟩
  | 30 => ⟨S700000, .i32⟩
  | 31 => ⟨S700000x1, .i32⟩
  | 32 => ⟨S700000, .f32⟩
  | 33 => ⟨S_, .i32⟩
  | 34 => ⟨S700000, .i32⟩
  | 35 => ⟨S700000, .i1⟩
  | 36 => ⟨S_, .i32⟩
  | 37 => ⟨S700000, .i32⟩
  | 38 => ⟨S700000, .i32⟩
  | 39 => ⟨S700000, .i32⟩
  | 40 => ⟨S700000x1, .i32⟩
  | 41 => ⟨S700000, .f32⟩
  | 42 => ⟨S700000, .f32⟩
  | 43 => ⟨S100000x128, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000x128, .f32⟩
  | 53 => ⟨S700000x1, .f32⟩
  | 54 => ⟨S700000x128, .f32⟩
  | 55 => ⟨S700000x128, .f32⟩
  | 56 => ⟨S_, .f32⟩
  | 57 => ⟨S100000x128, .f32⟩
  | 58 => ⟨S700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000, .i32⟩
  | 67 => ⟨S1x600000, .i32⟩
  | 68 => ⟨S600000, .i32⟩
  | 69 => ⟨S700000, .i32⟩
  | 70 => ⟨S1x600000, .i32⟩
  | 71 => ⟨S600000, .i32⟩
  | 72 => ⟨S700000, .i32⟩
  | 73 => ⟨S_, .f32⟩
  | 74 => ⟨S700000, .f32⟩
  | 75 => ⟨S_, .f32⟩
  | 76 => ⟨S100000, .f32⟩
  | 77 => ⟨S700000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S700000, .i32⟩
  | 85 => ⟨S700000, .i1⟩
  | 86 => ⟨S_, .i32⟩
  | 87 => ⟨S700000, .i32⟩
  | 88 => ⟨S700000, .i32⟩
  | 89 => ⟨S700000, .i32⟩
  | 90 => ⟨S700000x1, .i32⟩
  | 91 => ⟨S700000, .f32⟩
  | 92 => ⟨S_, .i32⟩
  | 93 => ⟨S700000, .i32⟩
  | 94 => ⟨S700000, .i1⟩
  | 95 => ⟨S_, .i32⟩
  | 96 => ⟨S700000, .i32⟩
  | 97 => ⟨S700000, .i32⟩
  | 98 => ⟨S700000, .i32⟩
  | 99 => ⟨S700000x1, .i32⟩
  | 100 => ⟨S700000, .f32⟩
  | 101 => ⟨S700000, .f32⟩
  | 102 => ⟨S100000x64, .f32⟩
  | 103 => ⟨S_, .i32⟩
  | 104 => ⟨S700000, .i32⟩
  | 105 => ⟨S700000, .i1⟩
  | 106 => ⟨S_, .i32⟩
  | 107 => ⟨S700000, .i32⟩
  | 108 => ⟨S700000, .i32⟩
  | 109 => ⟨S700000, .i32⟩
  | 110 => ⟨S700000x1, .i32⟩
  | 111 => ⟨S700000x64, .f32⟩
  | 112 => ⟨S700000x1, .f32⟩
  | 113 => ⟨S700000x64, .f32⟩
  | 114 => ⟨S700000x64, .f32⟩
  | 115 => ⟨S_, .f32⟩
  | 116 => ⟨S100000x64, .f32⟩
  | 117 => ⟨S700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S64x64, .f32⟩
  | 124 => ⟨S100000x1, .i32⟩
  | 125 => ⟨S64x64, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x64, .f32⟩
  | 9 => ⟨S64x64, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S_, .f32⟩
  | 16 => ⟨S64x64, .f32⟩
  | 17 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_15 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_22 : Ref sig .tc := ⟨.hbm, 140, rfl⟩
abbrev main_v107 : Ref sig .tc := ⟨.hbm, 141, rfl⟩
abbrev main_v108 : Ref sig .tc := ⟨.hbm, 142, rfl⟩
abbrev main_cst_23 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel's run with its result named.

  @main is five kernel regions among four stretches of host operations. Each stretch rewrites the buffers it
  writes, each region leaves in its output array what its grid points wrote back; the contents of every buffer
  at the nine boundaries are a fold from the launch memory, whose last stage is `W9`. Every weakly fair execution
  terminates, nothing faulting, and the final memory holds every unscoped buffer at that last stage: the seven
  argument arrays as launched, and the result buffer at the last stage's contents of it.
-/
import proofs.«140642_j80960133529893_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents of it and the
    argument arrays as launched. -/
theorem run_named : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Whole

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibMatProd.lean ====
/-
  The product of two matrices over the extended reals, entry by entry, and the one law this certificate rests on.

  `prod x w` is the `[a, b]` array whose entry `(p, q)` is `∑ k, x[p, k] · w[k, q]`. Three array programs
  compute it: a matrix product into a zero accumulator whose operands first change float format (a change of
  format is the identity on extended reals), a host `dot_general` with no accumulator, and — the law — a window
  of columns cut out of the product with two weight matrices set side by side:

      (x · [w₁ | w₂])[:, 0:A]   = x · w₁        (x · [w₁ | w₂])[:, A:A+B] = x · w₂ ,

  because entry `(k, q)` of `[w₁ | w₂]` is `w₁[k, q]` for `q < A` and `w₂[k, q - A]` beyond. Each sum is the
  same sum term by term, so nothing is asked of the entries: infinities are welcome.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«140642_j80960133529893_1_alg».proof.Proof.LibRowLayers

noncomputable section

namespace Cert.MatProd

open Idealize.ShloMosaic Idealize.ShloMosaic.ValueIdx Cert.RowLayers

/-- The matrix product entry by entry: `(x · w)[p, q] = ∑ k, x[p, k] · w[k, q]`. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, rowOf x (i 0) k * w (ix2 k (i 1))

theorem prod_apply {a K b : ℕ} (x : (⟨2, ![a, K]⟩ : Shape).Idx → EReal) (w : (⟨2, ![K, b]⟩ : Shape).Idx → EReal)
    (p : Fin a) (q : Fin b) : prod x w (ix2 p q) = ∑ k : Fin K, x (ix2 p k) * w (ix2 k q) := rfl

/-! ## The programs that compute it -/

section Programs
variable {a K b : ℕ} {d : DotDims ⟨2, ![a, K]⟩ ⟨2, ![K, b]⟩ ⟨2, ![a, b]⟩} {φ₁ φ₂ : FTy}

/-- The host's product with "rows times columns" dimension numbers is `prod`. -/
theorem dotGeneral_eq_prod (H : RowsTimesCols d) (prec : Option ContractPrecision)
    (x : FVec Ideal ⟨2, ![a, K]⟩ φ₁) (w : FVec Ideal ⟨2, ![K, b]⟩ φ₂) :
    Host.dotGeneral (F := Ideal) d prec x w = prod x w := by
  funext i
  obtain ⟨p, q, rfl⟩ : ∃ (p : Fin a) (q : Fin b), i = ix2 p q := ⟨i 0, i 1, eq_ix2 i⟩
  exact congrFun (rowOf_dotGeneral H prec x w p) q

/-- The device's product into a zero accumulator is `prod`. -/
theorem matmul_zero_eq_prod (H : RowsTimesCols d) (prec : Option ContractPrecision)
    (x : FVec Ideal ⟨2, ![a, K]⟩ φ₁) (w : FVec Ideal ⟨2, ![K, b]⟩ φ₂) :
    matmul d prec x w (constant (F := Ideal) ⟨2, ![a, b]⟩ .f32 0x00000000#32) = prod x w := by
  funext i
  obtain ⟨p, q, rfl⟩ : ∃ (p : Fin a) (q : Fin b), i = ix2 p q := ⟨i 0, i 1, eq_ix2 i⟩
  exact congrFun (rowOf_matmul_zero H prec x w p) q

end Programs

/-! ## A block of rows -/

/-- Entry `(r, q)` of a product reads row `r` of the left factor only: if `x₀` holds the rows of `x` from `r₀` on,
    then `x₀ · w` at `(p, q)` is `x · w` at `(r₀ + p, q)`. -/
theorem prod_of_row_block {a₀ a K b : ℕ} (x : (⟨2, ![a, K]⟩ : Shape).Idx → EReal) (w : (⟨2, ![K, b]⟩ : Shape).Idx → EReal)
    (x₀ : (⟨2, ![a₀, K]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (j : (⟨2, ![a₀, b]⟩ : Shape).Idx) (i : (⟨2, ![a, b]⟩ : Shape).Idx)
    (hi0 : (i 0).val = r₀ + (j 0).val) (hi1 : (i 1).val = (j 1).val) :
    prod x₀ w j = prod x w i := by
  unfold prod
  refine Finset.sum_congr rfl fun k _ => ?_
  have e0 : rowOf x₀ (j 0) k = rowOf x (i 0) k := hx₀ (ix2 (j 0) k) (ix2 (i 0) k) hi0 rfl
  have e1 : (ix2 k (j 1) : (⟨2, ![K, b]⟩ : Shape).Idx) = ix2 k (i 1) := congrArg (ix2 k) (Fin.ext hi1.symm)
  exact congrArg₂ (· * ·) e0 (congrArg w e1)

/-! ## Two weight matrices side by side -/

section SideBySide
variable {K A B C : ℕ}

/-- Left of the seam the joined matrix is the first one. -/
theorem concat_cols_left (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : j.val < A) :
    concatenate ⟨2, ![K, C]⟩ 1 [⟨⟨2, ![K, A]⟩, w₁⟩, ⟨⟨2, ![K, B]⟩, w₂⟩] hc (ix2 k j) = w₁ (ix2 k ⟨j.val, hj⟩) :=
  (congrFun (rowOf_concat_cols w₁ w₂ hc hC k) j).trans (dif_pos hj)

/-- From the seam on it is the second one. -/
theorem concat_cols_right (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (k : Fin K) (j : Fin C) (hj : ¬ j.val < A) :
    concatenate ⟨2, ![K, C]⟩ 1 [⟨⟨2, ![K, A]⟩, w₁⟩, ⟨⟨2, ![K, B]⟩, w₂⟩] hc (ix2 k j)
      = w₂ (ix2 k ⟨j.val - A, by have := j.isLt; omega⟩) :=
  (congrFun (rowOf_concat_cols w₁ w₂ hc hC k) j).trans (dif_neg hj)

variable {a : ℕ}

/-- THE LAW, left half: the first `A` columns of `x · [w₁ | w₂]` are `x · w₁`. -/
theorem slice_prod_concat_left (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, 0] ⟨2, ![a, A]⟩) :
    extractStridedSlice ⟨2, ![a, A]⟩ ![0, 0]
        (prod x (concatenate ⟨2, ![K, C]⟩ 1 [⟨⟨2, ![K, A]⟩, w₁⟩, ⟨⟨2, ![K, B]⟩, w₂⟩] hc)) hs
      = prod x w₁ := by
  funext i
  obtain ⟨p, q, rfl⟩ : ∃ (p : Fin a) (q : Fin A), i = ix2 p q := ⟨i 0, i 1, eq_ix2 i⟩
  rw [slice2_axis1_eq]
  refine Finset.sum_congr rfl fun k _ => congrArg (rowOf x p k * ·) ?_
  refine (concat_cols_left w₁ w₂ hc hC k _ (by show 0 + q.val < A; have := q.isLt; omega)).trans ?_
  exact congrArg (fun z => w₁ (ix2 k z)) (Fin.ext (Nat.zero_add q.val))

/-- THE LAW, right half: the next `B` columns of `x · [w₁ | w₂]` are `x · w₂`. -/
theorem slice_prod_concat_right (x : (⟨2, ![a, K]⟩ : Shape).Idx → EReal)
    (w₁ : (⟨2, ![K, A]⟩ : Shape).Idx → EReal) (w₂ : (⟨2, ![K, B]⟩ : Shape).Idx → EReal)
    (hc : Shape.Concatenates [(⟨2, ![K, A]⟩ : Shape), ⟨2, ![K, B]⟩] ⟨2, ![K, C]⟩ 1) (hC : C = A + B)
    (hs : (⟨2, ![a, C]⟩ : Shape).Slices ![0, A] ⟨2, ![a, B]⟩) :
    extractStridedSlice ⟨2, ![a, B]⟩ ![0, A]
        (prod x (concatenate ⟨2, ![K, C]⟩ 1 [⟨⟨2, ![K, A]⟩, w₁⟩, ⟨⟨2, ![K, B]⟩, w₂⟩] hc)) hs
      = prod x w₂ := by
  funext i
  obtain ⟨p, q, rfl⟩ : ∃ (p : Fin a) (q : Fin B), i = ix2 p q := ⟨i 0, i 1, eq_ix2 i⟩
  rw [slice2_axis1_eq]
  refine Finset.sum_congr rfl fun k _ => congrArg (rowOf x p k * ·) ?_
  refine (concat_cols_right w₁ w₂ hc hC k _ (by show ¬ A + q.val < A; omega)).trans ?_
  exact congrArg (fun z => w₂ (ix2 k z)) (Fin.ext (by show A + q.val - A = q.val; omega))

end SideBySide

end Cert.MatProd

end
-- ==== Proof.LibDenseLayers.lean ====
/-
  The dense pieces of a two-layer graph convolution with mean pooling, as whole-array functions over the
  extended reals.

  Besides the matrix product, a graph-convolution layer needs three entry-wise maps on `[a, b]` arrays:
  adding one bias row to every row (`shiftRows`), the rectifier `max · z` (`rectify`), and the logistic
  function (`sigmoid`). Entry `(r, q)` of each depends on row `r` of its array operand only, so a block of
  consecutive rows of the result is the same map of the matching block of rows: this is what lets a grid of
  row tiles be read as one whole-array function. Each map is also identified with the two spellings that
  compute it: the device's (a `[1, b]` row broadcast down the rows inside the kernel body, a splat threshold,
  one logistic operation) and the host's (a `[b]` vector given a unit leading axis and broadcast, a rank-0
  constant broadcast, and `1 / (1 + exp (-x))` written out as four operations). Nothing is asked of the
  entries: every identity holds at the infinities too.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«140642_j80960133529893_1_alg».proof.Proof.LibRowLayers
import proofs.«140642_j80960133529893_1_alg».proof.Proof.LibMatProd

noncomputable section

namespace Cert.GraphLayers

open Idealize.ShloMosaic Idealize.ShloMosaic.ValueIdx Cert.RowLayers Cert.MatProd

/-! ## The three entry-wise maps -/

/-- Every row of `x` plus the one row `bias`: entry `(r, q)` is `x[r, q] + bias[0, q]`. -/
def shiftRows {a b : ℕ} (x : (⟨2, ![a, b]⟩ : Shape).Idx → EReal) (bias : (⟨2, ![1, b]⟩ : Shape).Idx → EReal) :
    (⟨2, ![a, b]⟩ : Shape).Idx → EReal :=
  fun i => x i + bias (ix2 (0 : Fin 1) (i 1))

/-- The rectifier with threshold `z`, entry by entry. -/
def rectify {a b : ℕ} (z : EReal) (x : (⟨2, ![a, b]⟩ : Shape).Idx → EReal) : (⟨2, ![a, b]⟩ : Shape).Idx → EReal :=
  fun i => max (x i) z

/-- The logistic function `1 / (1 + e^(-x))`, entry by entry (`⊥ ↦ 0`, `⊤ ↦ 1`). -/
def sigmoid {a b : ℕ} (x : (⟨2, ![a, b]⟩ : Shape).Idx → EReal) : (⟨2, ![a, b]⟩ : Shape).Idx → EReal :=
  fun i => Ideal.logistic (x i)

/-! ## A block of consecutive rows -/

/-- A block of rows of a product whose weight is read through an identity re-indexing: if `x₀` holds the rows of
    `x` from `r₀` on and `w₀` is `w`, then `x₀ · w₀` at `(p, q)` is `x · w` at `(r₀ + p, q)`. -/
theorem prod_of_blocks {a₀ a K b : ℕ} (x : (⟨2, ![a, K]⟩ : Shape).Idx → EReal) (w : (⟨2, ![K, b]⟩ : Shape).Idx → EReal)
    (x₀ : (⟨2, ![a₀, K]⟩ : Shape).Idx → EReal) (w₀ : (⟨2, ![K, b]⟩ : Shape).Idx → EReal) (r₀ : ℕ)
    (hx₀ : ∀ (y : (⟨2, ![a₀, K]⟩ : Shape).Idx) (z : (⟨2, ![a, K]⟩ : Shape).Idx),
      (z 0).val = r₀ + (y 0).val → (z 1).val = (y 1).val → x₀ y = x z)
    (hw₀ : ∀ y, w₀ y = w y)
    (j : (⟨2, ![a₀, b]⟩ : Shape).Idx) (i : (⟨2, ![a, b]⟩ : Shape).Idx)
    (hi0 : (i 0).val = r₀ + (j 0).val) (hi1 : (i 1).val = (j 1).val) :
    prod x₀ w₀ j = prod x w i := by
  have e : w₀ = w := funext hw₀
  subst e
  exact prod_of_row_block x w₀ x₀ r₀ hx₀ j i hi0 hi1

/-- A block of rows of `shiftRows`: the block of `x` shifted by the same bias row. -/
theorem shiftRows_of_blocks {a₀ a b : ℕ} (x : (⟨2, ![a, b]⟩ : Shape).Idx → EReal) (bias : (⟨2, ![1, b]⟩ : Shape).Idx → EReal)
    (x₀ : (⟨2, ![a₀, b]⟩ : Shape).Idx → EReal) (bias₀ : (⟨2, ![1, b]⟩ : Shape).Idx → EReal) (r₀ : ℕ)
    (hx₀ : ∀ (y : (⟨2, ![a₀, b]⟩ : Shape).Idx) (z : (⟨2, ![a, b]⟩ : Shape).Idx),
      (z 0).val = r₀ + (y 0).val → (z 1).val = (y 1).val → x₀ y = x z)
    (hb₀ : ∀ y, bias₀ y = bias y)
    (j : (⟨2, ![a₀, b]⟩ : Shape).Idx) (i : (⟨2, ![a, b]⟩ : Shape).Idx)
    (hi0 : (i 0).val = r₀ + (j 0).val) (hi1 : (i 1).val = (j 1).val) :
    shiftRows x₀ bias₀ j = shiftRows x bias i := by
  unfold shiftRows
  rw [hx₀ j i hi0 hi1, hb₀]
  exact congrArg (fun z => x i + bias (ix2 (0 : Fin 1) z)) (Fin.ext hi1.symm)

/-! ## The device's spellings -/

section Device
variable {a b : ℕ}

/-- A bias row broadcast down the rows inside a kernel body and added (each operand first cast to its own shape). -/
theorem device_shift (x : FVec Ideal ⟨2, ![a, b]⟩ .f32) (bias : FVec Ideal ⟨2, ![1, b]⟩ .f32)
    (h1 : (⟨2, ![a, b]⟩ : Shape).ShapeCasts ⟨2, ![a, b]⟩) (h2 : (⟨2, ![1, b]⟩ : Shape).ShapeCasts ⟨2, ![1, b]⟩)
    (hB : (⟨2, ![1, b]⟩ : Shape).Broadcasts ⟨2, ![a, b]⟩) :
    addf (shapeCast ⟨2, ![a, b]⟩ x h1) (broadcastTo ⟨2, ![a, b]⟩ (shapeCast ⟨2, ![1, b]⟩ bias h2) hB) = shiftRows x bias := by
  rw [shapeCast_self, shapeCast_self]
  funext i
  obtain ⟨p, q, rfl⟩ : ∃ (p : Fin a) (q : Fin b), i = ix2 p q := ⟨i 0, i 1, eq_ix2 i⟩
  show x (ix2 p q) + broadcastTo ⟨2, ![a, b]⟩ bias hB (ix2 p q) = x (ix2 p q) + bias (ix2 (0 : Fin 1) q)
  rw [broadcastTo_1b_ab_apply]

/-- The maximum with a splat scalar. -/
theorem device_rectify (x : FVec Ideal ⟨2, ![a, b]⟩ .f32) (z : Ideal .f32) :
    maximumf x (broadcast ⟨2, ![a, b]⟩ z) = rectify z x := rfl

/-- The device's one logistic operation. -/
theorem device_sigmoid (x : FVec Ideal ⟨2, ![a, b]⟩ .f32) (h1 : (⟨2, ![a, b]⟩ : Shape).ShapeCasts ⟨2, ![a, b]⟩) :
    logistic (shapeCast ⟨2, ![a, b]⟩ x h1) = sigmoid x := by
  rw [shapeCast_self]
  rfl

end Device

/-! ## The host's spellings -/

section Host
variable {a b : ℕ}

/-- A `[b]` bias vector given a unit leading axis, broadcast down the rows and added: the shift by the vector viewed
    as one row. -/
theorem host_shift (x : FVec Ideal ⟨2, ![a, b]⟩ .f32) (v : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1])
    (hc : (⟨1, ![b]⟩ : Shape).ShapeCasts ⟨2, ![1, b]⟩) :
    addf x (broadcastInDim ⟨2, ![a, b]⟩ ![0, 1] h2 (broadcastInDim ⟨2, ![1, b]⟩ ![1] h1 v))
      = shiftRows x (shapeCast ⟨2, ![1, b]⟩ v hc) := by
  funext i
  obtain ⟨p, q, rfl⟩ : ∃ (p : Fin a) (q : Fin b), i = ix2 p q := ⟨i 0, i 1, eq_ix2 i⟩
  show x (ix2 p q) + broadcastInDim ⟨2, ![a, b]⟩ ![0, 1] h2 (broadcastInDim ⟨2, ![1, b]⟩ ![1] h1 v) (ix2 p q)
    = x (ix2 p q) + shapeCast ⟨2, ![1, b]⟩ v hc (ix2 (0 : Fin 1) q)
  rw [shapeCast_a_1a_apply]
  exact congrArg (x (ix2 p q) + ·) (congrFun (rowOf_broadcastInDim_vec v h1 h2 p) q)

/-- The maximum with a rank-0 constant broadcast over the array. -/
theorem host_rectify {s : Shape} (x : FVec Ideal ⟨2, ![a, b]⟩ .f32) (w : BitVec FTy.f32.bits) (dims : Fin s.rank → Fin 2)
    (h : s.BroadcastsInDim ⟨2, ![a, b]⟩ dims) :
    maximumf x (broadcastInDim ⟨2, ![a, b]⟩ dims h (constant (F := Ideal) s .f32 w)) = rectify (Ideal.ofBits .f32 w) x := rfl

/-- The f32 pattern of 1.0 is the extended real 1. -/
theorem ofBits_one : Ideal.ofBits .f32 0x3F800000#32 = (1 : EReal) := by
  simp [Ideal.ofBits, Ideal.ieee, -EReal.coe_mul]; norm_num

/-- The logistic function written out on the host — `1 / (1 + exp (-x))`, the ones rank-0 constants broadcast — is
    the logistic function. -/
theorem host_sigmoid {s : Shape} (x : FVec Ideal ⟨2, ![a, b]⟩ .f32) (dims : Fin s.rank → Fin 2)
    (h : s.BroadcastsInDim ⟨2, ![a, b]⟩ dims) :
    Host.divf (broadcastInDim ⟨2, ![a, b]⟩ dims h (constant (F := Ideal) s .f32 0x3F800000#32))
        (addf (broadcastInDim ⟨2, ![a, b]⟩ dims h (constant (F := Ideal) s .f32 0x3F800000#32)) (Host.exp (Host.negf x)))
      = sigmoid x := by
  funext i
  show Ideal.div (Ideal.ofBits .f32 0x3F800000#32) (Ideal.ofBits .f32 0x3F800000#32 + Ideal.exp (-(x i))) = Ideal.logistic (x i)
  rw [ofBits_one]
  rfl

end Host

end Cert.GraphLayers

end
-- ==== Proof.Region0.lean ====
/-
  Region 0: a matrix product tiled by rows.

  The grid has ten points; point `t` fetches rows `10000·t … 10000·t + 9999` of the left factor and the whole
  weight matrix, multiplies them into a zero accumulator (the operands first change float format, which is the
  identity on extended reals) and writes the product back to the same rows of the output. Entry `(r, q)` of a
  product reads row `r` of the left factor only, so each block written back is the matching block of rows of the
  ONE product of the whole arrays; the ten blocks tile the output, which therefore ends holding that product.
-/
import proofs.«140642_j80960133529893_1_alg».proof.Proof.Gen.KernelIdeal.Frame
import proofs.«140642_j80960133529893_1_alg».proof.Proof.LibDenseLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd Cert.GraphLayers

-- the TensorCore's buffer contents when the region is entered: any
variable (V : (c : Dev nD) → (b : Ref sig .tc) → Buf (Elt Ideal) ((c : Thread nD τ).loc b))

theorem off0 : (![0, 0] : Fin 2 → Nat) = fun _ => 0 := funext fun a => by fin_cases a <;> rfl

/-- The printed dimension numbers contract the left factor's columns with the right factor's rows. -/
theorem rtc0 : RowsTimesCols (a := 10000) (K := 128) (b := 128) dot_S10000x128_S128x128_S10000x128_1_0_0_1_n_n :=
  ⟨rfl, rfl, fun _ _ => rfl, fun _ _ => rfl, fun _ _ => rfl, fun _ _ => rfl⟩

/-- The body's one store holds the product of the two loaded blocks. -/
theorem pay0_eq (x0 : Vec Ideal S10000x128 .f32) (x1 : Vec Ideal S128x128 .f32) :
    k0_pay1 x0 x1 = prod (a := 10000) (K := 128) (b := 128) x0 x1 := by
  unfold k0_pay1
  exact matmul_zero_eq_prod rtc0 none _ _

/-- The printed index maps over the grid: the left factor's and the output's blocks move together down the rows,
    the weight's block stays. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 9 ∧ win0_2.index t (1 : Fin 2) = 0 :=
  (by decide +kernel : ∀ t : Fin grid0.N, _)

/-- Every block of rows is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the whole arrays. -/
theorem flushed0 (c : Dev nD) (t : Fin cfg0.N) :
    (dat0 V c).flushed 2 t = ((cfg0.win 2).blk t).view.read (Elt Ideal)
      (prod (a := 100000) (K := 128) (b := 128) (V c main_arg0) (V c main_arg3)) := by
  show (cfg0.win 2).cut (grid0.coords t) ((dat0 V c).after 2 t) = _
  rw [after0_2]
  unfold out0_2
  rw [View.canon_unit_zero off0]
  simp only [View.ld_unit_zero (S := S10000x128) off0, View.ld_unit_zero (S := S128x128) off0]
  rw [pay0_eq]
  obtain ⟨e0, e1, e2, e3, e4, e5⟩ := idx_facts0 t
  funext j
  show prod (a := 10000) (K := 128) (b := 128) (iblk0 V c 0 t) (iblk0 V c 1 t) j
    = prod (a := 100000) (K := 128) (b := 128) (V c main_arg0) (V c main_arg3) (((cfg0.win 2).blk t).view.emb j)
  refine prod_of_blocks (a₀ := 10000) (a := 100000) (K := 128) (b := 128) (V c main_arg0) (V c main_arg3)
    (iblk0 V c 0 t) (iblk0 V c 1 t) (win0_2.index t (0 : Fin 2) * 10000) ?_ ?_ j (((cfg0.win 2).blk t).view.emb j) ?_ ?_
  · intro y z h0 h1
    show V c main_arg0 (((cfg0.win 0).blk t).view.emb y) = V c main_arg0 z
    refine congrArg _ (funext fun a => Fin.ext ?_)
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · intro y
    show V c main_arg3 (((cfg0.win 1).blk t).view.emb y) = V c main_arg3 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 10000 + 1 * (j 0).val = win0_2.index t (0 : Fin 2) * 10000 + (j 0).val; omega
  · show win0_2.index t (1 : Fin 2) * 128 + 1 * (j 1).val = (j 1).val; omega

/-- An index of the output is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v29).slice (win0_2.rect t)).set ↔ _
  rw [View.set_slice_whole, Rect.mem_set_unit]
  exact Iff.rfl

/-- The ten blocks tile the output: row `r` is in the block of point `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE REGION'S OUTPUT ARRAY after its ten points: the product of its two input arrays as the region found them. -/
theorem region0 (c : Dev nD) :
    (dat0 V c).arrAt 2 cfg0.N = prod (a := 100000) (K := 128) (b := 128) (V c main_arg0) (V c main_arg3) :=
  (dat0 V c).arrAt_eq_of_cover 2 _ (fun t _ => flushed0 V c t) (fun i => cover0 i)

end Cert.KernelIdeal.Whole

end
-- ==== Proof.Region1.lean ====
/-
  Region 1: a bias row added to every row, then the rectifier, tiled by rows.

  The grid has ten points; point `t` fetches rows `10000·t … 10000·t + 9999` of the array and the whole one-row
  bias, adds the bias row to each of those rows, takes the maximum with zero entry by entry and writes the result back
  to the same rows of the output. Entry `(r, q)` of the result reads entry `(r, q)` of the array and entry `(0, q)`
  of the bias only, so each block written back is the matching block of rows of the ONE whole-array map; the
  ten blocks tile the output, which therefore ends holding that map of the whole input arrays.
-/
import proofs.«140642_j80960133529893_1_alg».proof.Proof.Gen.KernelIdeal.Frame
import proofs.«140642_j80960133529893_1_alg».proof.Proof.LibDenseLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd Cert.GraphLayers

-- the TensorCore's buffer contents when the region is entered: any
variable (V : (c : Dev nD) → (b : Ref sig .tc) → Buf (Elt Ideal) ((c : Thread nD τ).loc b))

theorem off1 : (![0, 0] : Fin 2 → Nat) = fun _ => 0 := funext fun a => by fin_cases a <;> rfl

/-- The body's one store holds the loaded block shifted by the loaded bias row and rectified at zero. -/
theorem pay1_eq (x0 : Vec Ideal S10000x128 .f32) (x1 : Vec Ideal S1x128 .f32) :
    k1_pay1 x0 x1 = rectify (Ideal.ofBits .f32 0x00000000#32) (shiftRows (a := 10000) (b := 128) x0 x1) := by
  unfold k1_pay1
  exact congrArg (rectify (a := 10000) (b := 128) (Ideal.ofBits .f32 0x00000000#32)) (device_shift (a := 10000) (b := 128) x0 x1 _ _ _)

/-- The printed index maps over the grid: the array's and the output's blocks move together down the rows, the bias
    row's block stays. -/
theorem idx_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) ≤ 9 ∧ win1_2.index t (1 : Fin 2) = 0 :=
  (by decide +kernel : ∀ t : Fin grid1.N, _)

/-- Every block of rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole-array map. -/
theorem flushed1 (c : Dev nD) (t : Fin cfg1.N) :
    (dat1 V c).flushed 2 t = ((cfg1.win 2).blk t).view.read (Elt Ideal)
      (rectify (Ideal.ofBits .f32 0x00000000#32) (shiftRows (a := 100000) (b := 128) (V c main_v42) (V c main_v43))) := by
  show (cfg1.win 2).cut (grid1.coords t) ((dat1 V c).after 2 t) = _
  rw [after1_2]
  unfold out1_2
  rw [View.canon_unit_zero off1]
  simp only [View.ld_unit_zero (S := S10000x128) off1, View.ld_unit_zero (S := S1x128) off1]
  rw [pay1_eq]
  obtain ⟨e0, e1, e2, e3, e4, e5⟩ := idx_facts1 t
  funext j
  show rectify (a := 10000) (b := 128) (Ideal.ofBits .f32 0x00000000#32) (shiftRows (a := 10000) (b := 128) (iblk1 V c 0 t) (iblk1 V c 1 t)) j
    = rectify (a := 100000) (b := 128) (Ideal.ofBits .f32 0x00000000#32) (shiftRows (a := 100000) (b := 128) (V c main_v42) (V c main_v43)) (((cfg1.win 2).blk t).view.emb j)
  refine congrArg (fun z : EReal => max z (Ideal.ofBits .f32 0x00000000#32)) ?_
  refine shiftRows_of_blocks (a₀ := 10000) (a := 100000) (b := 128) (V c main_v42) (V c main_v43)
    (iblk1 V c 0 t) (iblk1 V c 1 t) (win1_2.index t (0 : Fin 2) * 10000) ?_ ?_ j (((cfg1.win 2).blk t).view.emb j) ?_ ?_
  · intro y z h0 h1
    show V c main_v42 (((cfg1.win 0).blk t).view.emb y) = V c main_v42 z
    refine congrArg _ (funext fun a => Fin.ext ?_)
    match a with
    | ⟨0, _⟩ => show win1_0.index t (0 : Fin 2) * 10000 + 1 * (y 0).val = (z 0).val; omega
    | ⟨1, _⟩ => show win1_0.index t (1 : Fin 2) * 128 + 1 * (y 1).val = (z 1).val; omega
  · intro y
    show V c main_v43 (((cfg1.win 1).blk t).view.emb y) = V c main_v43 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (0 : Fin 2) * 10000 + 1 * (j 0).val = win1_2.index t (0 : Fin 2) * 10000 + (j 0).val; omega
  · show win1_2.index t (1 : Fin 2) * 128 + 1 * (j 1).val = (j 1).val; omega

/-- An index of the output is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v44).slice (win1_2.rect t)).set ↔ _
  rw [View.set_slice_whole, Rect.mem_set_unit]
  exact Iff.rfl

/-- The ten blocks tile the output: row `r` is in the block of point `r / 10000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE REGION'S OUTPUT ARRAY after its ten points: the whole-array map of its two input arrays as the region found
    them. -/
theorem region1 (c : Dev nD) :
    (dat1 V c).arrAt 2 cfg1.N = rectify (Ideal.ofBits .f32 0x00000000#32) (shiftRows (a := 100000) (b := 128) (V c main_v42) (V c main_v43)) :=
  (dat1 V c).arrAt_eq_of_cover 2 _ (fun t _ => flushed1 V c t) (fun i => cover1 i)

end Cert.KernelIdeal.Whole

end
-- ==== Proof.Region2.lean ====
/-
  Region 2: a matrix product tiled by rows.

  The grid has ten points; point `t` fetches rows `10000·t … 10000·t + 9999` of the left factor and the whole
  weight matrix, multiplies them into a zero accumulator (the operands first change float format, which is the
  identity on extended reals) and writes the product back to the same rows of the output. Entry `(r, q)` of a
  product reads row `r` of the left factor only, so each block written back is the matching block of rows of the
  ONE product of the whole arrays; the ten blocks tile the output, which therefore ends holding that product.
-/
import proofs.«140642_j80960133529893_1_alg».proof.Proof.Gen.KernelIdeal.Frame
import proofs.«140642_j80960133529893_1_alg».proof.Proof.LibDenseLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd Cert.GraphLayers

-- the TensorCore's buffer contents when the region is entered: any
variable (V : (c : Dev nD) → (b : Ref sig .tc) → Buf (Elt Ideal) ((c : Thread nD τ).loc b))

theorem off2 : (![0, 0] : Fin 2 → Nat) = fun _ => 0 := funext fun a => by fin_cases a <;> rfl

/-- The printed dimension numbers contract the left factor's columns with the right factor's rows. -/
theorem rtc2 : RowsTimesCols (a := 10000) (K := 128) (b := 64) dot_S10000x128_S128x64_S10000x64_1_0_0_1_n_n :=
  ⟨rfl, rfl, fun _ _ => rfl, fun _ _ => rfl, fun _ _ => rfl, fun _ _ => rfl⟩

/-- The body's one store holds the product of the two loaded blocks. -/
theorem pay2_eq (x0 : Vec Ideal S10000x128 .f32) (x1 : Vec Ideal S128x64 .f32) :
    k2_pay1 x0 x1 = prod (a := 10000) (K := 128) (b := 64) x0 x1 := by
  unfold k2_pay1
  simp only [shapeCast_self]
  exact matmul_zero_eq_prod rtc2 none _ _

/-- The printed index maps over the grid: the left factor's and the output's blocks move together down the rows,
    the weight's block stays. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) ≤ 9 ∧ win2_2.index t (1 : Fin 2) = 0 :=
  (by decide +kernel : ∀ t : Fin grid2.N, _)

/-- Every block of rows is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product of the whole arrays. -/
theorem flushed2 (c : Dev nD) (t : Fin cfg2.N) :
    (dat2 V c).flushed 2 t = ((cfg2.win 2).blk t).view.read (Elt Ideal)
      (prod (a := 100000) (K := 128) (b := 64) (V c main_v44) (V c main_arg5)) := by
  show (cfg2.win 2).cut (grid2.coords t) ((dat2 V c).after 2 t) = _
  rw [after2_2]
  unfold out2_2
  rw [View.canon_unit_zero off2]
  simp only [View.ld_unit_zero (S := S10000x128) off2, View.ld_unit_zero (S := S128x64) off2]
  rw [pay2_eq]
  obtain ⟨e0, e1, e2, e3, e4, e5⟩ := idx_facts2 t
  funext j
  show prod (a := 10000) (K := 128) (b := 64) (iblk2 V c 0 t) (iblk2 V c 1 t) j
    = prod (a := 100000) (K := 128) (b := 64) (V c main_v44) (V c main_arg5) (((cfg2.win 2).blk t).view.emb j)
  refine prod_of_blocks (a₀ := 10000) (a := 100000) (K := 128) (b := 64) (V c main_v44) (V c main_arg5)
    (iblk2 V c 0 t) (iblk2 V c 1 t) (win2_2.index t (0 : Fin 2) * 10000) ?_ ?_ j (((cfg2.win 2).blk t).view.emb j) ?_ ?_
  · intro y z h0 h1
    show V c main_v44 (((cfg2.win 0).blk t).view.emb y) = V c main_v44 z
    refine congrArg _ (funext fun a => Fin.ext ?_)
    match a with
    | ⟨0, _⟩ => show win2_0.index t (0 : Fin 2) * 10000 + 1 * (y 0).val = (z 0).val; omega
    | ⟨1, _⟩ => show win2_0.index t (1 : Fin 2) * 128 + 1 * (y 1).val = (z 1).val; omega
  · intro y
    show V c main_arg5 (((cfg2.win 1).blk t).view.emb y) = V c main_arg5 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 64 + 1 * (y 1).val = (y 1).val; omega
  · show win2_2.index t (0 : Fin 2) * 10000 + 1 * (j 0).val = win2_2.index t (0 : Fin 2) * 10000 + (j 0).val; omega
  · show win2_2.index t (1 : Fin 2) * 64 + 1 * (j 1).val = (j 1).val; omega

/-- An index of the output is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- The ten blocks tile the output: row `r` is in the block of point `r / 10000`. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE REGION'S OUTPUT ARRAY after its ten points: the product of its two input arrays as the region found them. -/
theorem region2 (c : Dev nD) :
    (dat2 V c).arrAt 2 cfg2.N = prod (a := 100000) (K := 128) (b := 64) (V c main_v44) (V c main_arg5) :=
  (dat2 V c).arrAt_eq_of_cover 2 _ (fun t _ => flushed2 V c t) (fun i => cover2 i)

end Cert.KernelIdeal.Whole

end
-- ==== Proof.Region3.lean ====
/-
  Region 3: a bias row added to every row, tiled by rows.

  The grid has ten points; point `t` fetches rows `10000·t … 10000·t + 9999` of the array and the whole one-row
  bias, adds the bias row to each of those rows and writes the result back
  to the same rows of the output. Entry `(r, q)` of the result reads entry `(r, q)` of the array and entry `(0, q)`
  of the bias only, so each block written back is the matching block of rows of the ONE whole-array map; the
  ten blocks tile the output, which therefore ends holding that map of the whole input arrays.
-/
import proofs.«140642_j80960133529893_1_alg».proof.Proof.Gen.KernelIdeal.Frame
import proofs.«140642_j80960133529893_1_alg».proof.Proof.LibDenseLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd Cert.GraphLayers

-- the TensorCore's buffer contents when the region is entered: any
variable (V : (c : Dev nD) → (b : Ref sig .tc) → Buf (Elt Ideal) ((c : Thread nD τ).loc b))

theorem off3 : (![0, 0] : Fin 2 → Nat) = fun _ => 0 := funext fun a => by fin_cases a <;> rfl

/-- The body's one store holds the loaded block shifted by the loaded bias row. -/
theorem pay3_eq (x0 : Vec Ideal S10000x64 .f32) (x1 : Vec Ideal S1x64 .f32) :
    k3_pay1 x0 x1 = shiftRows (a := 10000) (b := 64) x0 x1 := by
  unfold k3_pay1
  exact device_shift (a := 10000) (b := 64) x0 x1 _ _ _

/-- The printed index maps over the grid: the array's and the output's blocks move together down the rows, the bias
    row's block stays. -/
theorem idx_facts3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) ≤ 9 ∧ win3_2.index t (1 : Fin 2) = 0 :=
  (by decide +kernel : ∀ t : Fin grid3.N, _)

/-- Every block of rows is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole-array map. -/
theorem flushed3 (c : Dev nD) (t : Fin cfg3.N) :
    (dat3 V c).flushed 2 t = ((cfg3.win 2).blk t).view.read (Elt Ideal)
      (shiftRows (a := 100000) (b := 64) (V c main_v58) (V c main_v59)) := by
  show (cfg3.win 2).cut (grid3.coords t) ((dat3 V c).after 2 t) = _
  rw [after3_2]
  unfold out3_2
  rw [View.canon_unit_zero off3]
  simp only [View.ld_unit_zero (S := S10000x64) off3, View.ld_unit_zero (S := S1x64) off3]
  rw [pay3_eq]
  obtain ⟨e0, e1, e2, e3, e4, e5⟩ := idx_facts3 t
  funext j
  show shiftRows (a := 10000) (b := 64) (iblk3 V c 0 t) (iblk3 V c 1 t) j
    = shiftRows (a := 100000) (b := 64) (V c main_v58) (V c main_v59) (((cfg3.win 2).blk t).view.emb j)
  refine shiftRows_of_blocks (a₀ := 10000) (a := 100000) (b := 64) (V c main_v58) (V c main_v59)
    (iblk3 V c 0 t) (iblk3 V c 1 t) (win3_2.index t (0 : Fin 2) * 10000) ?_ ?_ j (((cfg3.win 2).blk t).view.emb j) ?_ ?_
  · intro y z h0 h1
    show V c main_v58 (((cfg3.win 0).blk t).view.emb y) = V c main_v58 z
    refine congrArg _ (funext fun a => Fin.ext ?_)
    match a with
    | ⟨0, _⟩ => show win3_0.index t (0 : Fin 2) * 10000 + 1 * (y 0).val = (z 0).val; omega
    | ⟨1, _⟩ => show win3_0.index t (1 : Fin 2) * 64 + 1 * (y 1).val = (z 1).val; omega
  · intro y
    show V c main_v59 (((cfg3.win 1).blk t).view.emb y) = V c main_v59 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  · show win3_2.index t (0 : Fin 2) * 10000 + 1 * (j 0).val = win3_2.index t (0 : Fin 2) * 10000 + (j 0).val; omega
  · show win3_2.index t (1 : Fin 2) * 64 + 1 * (j 1).val = (j 1).val; omega

/-- An index of the output is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v60).slice (win3_2.rect t)).set ↔ _
  rw [View.set_slice_whole, Rect.mem_set_unit]
  exact Iff.rfl

/-- The ten blocks tile the output: row `r` is in the block of point `r / 10000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE REGION'S OUTPUT ARRAY after its ten points: the whole-array map of its two input arrays as the region found
    them. -/
theorem region3 (c : Dev nD) :
    (dat3 V c).arrAt 2 cfg3.N = shiftRows (a := 100000) (b := 64) (V c main_v58) (V c main_v59) :=
  (dat3 V c).arrAt_eq_of_cover 2 _ (fun t _ => flushed3 V c t) (fun i => cover3 i)

end Cert.KernelIdeal.Whole

end
-- ==== Proof.Region4.lean ====
/-
  Region 4: the logistic function of a `[64, 64]` array, in one block.

  The grid has one point: it fetches the whole array, applies the logistic function entry by entry and writes
  the whole result back, so the output array ends holding the logistic function of the input array.
-/
import proofs.«140642_j80960133529893_1_alg».proof.Proof.Gen.KernelIdeal.Frame
import proofs.«140642_j80960133529893_1_alg».proof.Proof.LibDenseLayers
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.RowLayers Cert.MatProd Cert.GraphLayers

-- the TensorCore's buffer contents when the region is entered: any
variable (V : (c : Dev nD) → (b : Ref sig .tc) → Buf (Elt Ideal) ((c : Thread nD τ).loc b))

theorem off4 : (![0, 0] : Fin 2 → Nat) = fun _ => 0 := funext fun a => by fin_cases a <;> rfl

/-- The body's one store holds the logistic function of the loaded block. -/
theorem pay4_eq (x0 : Vec Ideal S64x64 .f32) : k4_pay1 x0 = sigmoid (a := 64) (b := 64) x0 := by
  unfold k4_pay1
  exact device_sigmoid (a := 64) (b := 64) x0 _

/-- The printed index maps at the one point: both blocks are the whole arrays. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0 :=
  (by decide +kernel : ∀ t : Fin grid4.N, _)

/-- What the point writes back is the logistic function of the whole input array. -/
theorem flushed4 (c : Dev nD) (t : Fin cfg4.N) :
    (dat4 V c).flushed 1 t = ((cfg4.win 1).blk t).view.read (Elt Ideal) (sigmoid (a := 64) (b := 64) (V c main_v72)) := by
  show (cfg4.win 1).cut (grid4.coords t) ((dat4 V c).after 1 t) = _
  rw [after4_1]
  unfold out4_1
  rw [View.canon_unit_zero off4]
  simp only [View.ld_unit_zero (S := S64x64) off4]
  rw [pay4_eq]
  obtain ⟨e0, e1, e2, e3⟩ := idx_facts4 t
  funext j
  show Ideal.logistic (V c main_v72 (((cfg4.win 0).blk t).view.emb j)) = Ideal.logistic (V c main_v72 (((cfg4.win 1).blk t).view.emb j))
  refine congrArg (fun z => Ideal.logistic (V c main_v72 z)) (funext fun a => Fin.ext ?_)
  match a with
  | ⟨0, _⟩ => show win4_0.index t (0 : Fin 2) * 64 + 1 * (j 0).val = win4_1.index t (0 : Fin 2) * 64 + 1 * (j 0).val; omega
  | ⟨1, _⟩ => show win4_0.index t (1 : Fin 2) * 64 + 1 * (j 1).val = win4_1.index t (1 : Fin 2) * 64 + 1 * (j 1).val; omega

/-- An index of the output is in the point's block iff each coordinate is in the block's range on its axis. -/
theorem mem_blk4 (t : Fin cfg4.N) (i : S64x64.Idx) :
    i ∈ ((cfg4.win 1).blk t).view.set ↔ ∀ a : Fin 2, win4_1.index t a * S64x64.size a ≤ (i a).val ∧ (i a).val < win4_1.index t a * S64x64.size a + S64x64.size a := by
  show i ∈ ((View.whole main_v73).slice (win4_1.rect t)).set ↔ _
  rw [View.set_slice_whole, Rect.mem_set_unit]
  exact Iff.rfl

/-- The one block is the whole output. -/
theorem cover4 (i : S64x64.Idx) : ∃ t : Fin cfg4.N, (cfg4.win 1).flush t = true ∧ i ∈ ((cfg4.win 1).blk t).view.set := by
  have hi0 : (i 0).val < 64 := (i 0).isLt
  have hi1 : (i 1).val < 64 := (i 1).isLt
  obtain ⟨e0, e1, e2, e3⟩ := idx_facts4 t4_0
  refine ⟨t4_0, flush4_1 t4_0, ?_⟩
  rw [mem_blk4]
  intro a
  match a with
  | ⟨0, _⟩ => show win4_1.index t4_0 (0 : Fin 2) * 64 ≤ (i 0).val ∧ (i 0).val < win4_1.index t4_0 (0 : Fin 2) * 64 + 64; omega
  | ⟨1, _⟩ => show win4_1.index t4_0 (1 : Fin 2) * 64 ≤ (i 1).val ∧ (i 1).val < win4_1.index t4_0 (1 : Fin 2) * 64 + 64; omega

/-- THE REGION'S OUTPUT ARRAY after its one point: the logistic function of its input array as the region found it. -/
theorem region4 (c : Dev nD) :
    (dat4 V c).arrAt 1 cfg4.N = sigmoid (a := 64) (b := 64) (V c main_v72) :=
  (dat4 V c).arrAt_eq_of_cover 1 _ (fun t _ => flushed4 V c t) (fun i => cover4 i)

end Cert.KernelIdeal.Whole

end
-- ==== Proof.RefStages.lean ====
/-
  The reference, stage by stage, in the vocabulary of the layer functions.

  The reference is two graph-convolution layers, a mean pooling and a logistic function, written as host
  operations. Its gather / scatter / index stages are kept as they are; its four dense stages are identified
  with the whole-array layer functions: each matrix product with `prod`, "add the bias vector broadcast down
  the rows, then maximum with zero" with `rectify 0 ∘ shiftRows`, "add the bias vector" with `shiftRows`, and
  `1 / (1 + exp (-x))` with `sigmoid`. The reference computes the self-looped source and target node lists and
  the per-edge coefficients once per layer; the second computation repeats the first operation for operation,
  so the two are one function of the edge list.
-/
import proofs.«140642_j80960133529893_1_alg».proof.Proof.Gen.ReferenceIdeal.Read
import proofs.«140642_j80960133529893_1_alg».proof.Proof.LibDenseLayers

set_option maxRecDepth 16384

noncomputable section

namespace Cert.ReferenceIdeal.Stages

open Cert.ReferenceIdeal Cert.ReferenceIdeal.Gen Cert.ReferenceIdeal.Read
open Idealize.ShloMosaic Idealize.ShloMosaic.ValueIdx
open Cert.RowLayers Cert.MatProd Cert.GraphLayers

/-- The printed dimension numbers of the first product contract the left factor's columns with the right factor's rows. -/
theorem rtc_first : RowsTimesCols (a := 100000) (K := 128) (b := 128) dot_S100000x128_S128x128_S100000x128_1_0_0_1_n_n :=
  ⟨rfl, rfl, fun _ _ => rfl, fun _ _ => rfl, fun _ _ => rfl, fun _ _ => rfl⟩

/-- So do the second product's. -/
theorem rtc_second : RowsTimesCols (a := 100000) (K := 128) (b := 64) dot_S100000x128_S128x64_S100000x64_1_0_0_1_n_n :=
  ⟨rfl, rfl, fun _ _ => rfl, fun _ _ => rfl, fun _ _ => rfl, fun _ _ => rfl⟩

/-- The first layer's transform `x · W1`. -/
theorem v29_eq (x0 : (⟨S100000x128, .f32⟩ : BufTy).Contents (Elt Ideal)) (x3 : (⟨S128x128, .f32⟩ : BufTy).Contents (Elt Ideal)) :
    val_main_v29 (F := Ideal) x0 x3 = prod (a := 100000) (K := 128) (b := 128) x0 x3 := by
  unfold val_main_v29
  exact dotGeneral_eq_prod rtc_first none x0 x3

/-- The first layer's output: the aggregate plus the bias `b1` on every row, rectified at zero. -/
theorem v46_eq (x0 : (⟨S100000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal))
    (hc : (⟨1, ![128]⟩ : Shape).ShapeCasts ⟨2, ![1, 128]⟩) :
    val_main_v46 (F := Ideal) x0 x1 x3 x4
      = rectify (Ideal.ofBits .f32 0x00000000#32)
          (shiftRows (a := 100000) (b := 128) (val_main_v42 (F := Ideal) x0 x1 x3) (shapeCast ⟨2, ![1, 128]⟩ x4 hc)) := by
  unfold val_main_v46 val_main_v45 val_main_v44 val_main_v43 val_main_call0_v0 val_main_call0_cst
  exact congrArg (rectify (a := 100000) (b := 128) (Ideal.ofBits .f32 0x00000000#32))
    (host_shift (a := 100000) (b := 128) (val_main_v42 (F := Ideal) x0 x1 x3) x4 _ _ hc)

/-- The second layer's transform `h · W2`. -/
theorem v76_eq (x0 : (⟨S100000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) :
    val_main_v76 (F := Ideal) x0 x1 x3 x4 x5
      = prod (a := 100000) (K := 128) (b := 64) (val_main_v46 (F := Ideal) x0 x1 x3 x4) x5 := by
  unfold val_main_v76
  exact dotGeneral_eq_prod rtc_second none _ x5

/-- The second layer's output: the aggregate plus the bias `b2` on every row. -/
theorem v92_eq (x0 : (⟨S100000x128, .f32⟩ : BufTy).Contents (Elt Ideal)) (x1 : (⟨S2x600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal))
    (hc : (⟨1, ![64]⟩ : Shape).ShapeCasts ⟨2, ![1, 64]⟩) :
    val_main_v92 (F := Ideal) x0 x1 x3 x4 x5 x6
      = shiftRows (a := 100000) (b := 64) (val_main_v89 (F := Ideal) x0 x1 x3 x4 x5) (shapeCast ⟨2, ![1, 64]⟩ x6 hc) := by
  unfold val_main_v92 val_main_v91 val_main_v90
  exact host_shift (a := 100000) (b := 64) (val_main_v89 (F := Ideal) x0 x1 x3 x4 x5) x6 _ _ hc

/-- The result: the logistic function of the pooled means. -/
theorem v110_eq (x0 : (⟨S100000x128, .f32⟩ : BufTy).Contents (Elt Ideal)) (x1 : (⟨S2x600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v110 (F := Ideal) x0 x1 x2 x3 x4 x5 x6 = sigmoid (a := 64) (b := 64) (val_main_v104 (F := Ideal) x0 x1 x2 x3 x4 x5 x6) := by
  unfold val_main_v110 val_main_v109 val_main_v108 val_main_v107 val_main_v106 val_main_v105 val_main_cst_22 val_main_cst_23
  exact host_sigmoid (a := 64) (b := 64) (s := S_) (val_main_v104 (F := Ideal) x0 x1 x2 x3 x4 x5 x6)
    (![] : Fin 0 → Fin S64x64.rank) bcast_S_S64x64

/-! ## The second layer's index arrays and coefficients are the first layer's -/

/-- The self-looped source list. -/
theorem v50_eq (x1 : (⟨S2x600000, .i32⟩ : BufTy).Contents (Elt Ideal)) : val_main_v50 (F := Ideal) x1 = val_main_v3 (F := Ideal) x1 := rfl

/-- The self-looped target list. -/
theorem v53_eq (x1 : (⟨S2x600000, .i32⟩ : BufTy).Contents (Elt Ideal)) : val_main_v53 (F := Ideal) x1 = val_main_v6 (F := Ideal) x1 := rfl

/-- The per-edge coefficient `deg^(-1/2)[source] · deg^(-1/2)[target]`. -/
theorem v75_eq (x1 : (⟨S2x600000, .i32⟩ : BufTy).Contents (Elt Ideal)) : val_main_v75 (F := Ideal) x1 = val_main_v28 (F := Ideal) x1 := rfl

end Cert.ReferenceIdeal.Stages

end
-- ==== Proof.LibConcatPair.lean ====
/-
  A concatenation of two arrays with each operand as a plain argument, and the fold of a line of host operations read
  through it.

  `concatenate t ax [⟨A, a⟩, ⟨B, b⟩] h` takes its operands inside a list of (shape, contents) pairs; rewriting does not
  reach the contents there. `concat2 t ax A B a b h` is the same array with `a` and `b` as arguments of their own, so a
  rewrite of an operand's contents goes through. `after_results_pairs` reads what one buffer holds after a literal line
  of host operations (the library's one-pass reading of such a line) with every two-operand concatenation first put in
  that form, so that the operands' own contents are read as well; `concat2` unfolds back by `rfl`.
-/
import Idealize.ShloMosaic.Lib.StableHlo.Run

namespace Cert.ConcatPair

open Idealize.ShloMosaic

variable {α : Type}

/-- The concatenation of two arrays along axis `ax` of the result shape `t`. -/
def concat2 (t : Shape) (ax : Fin t.rank) (A B : Shape) (a : A.Idx → α) (b : B.Idx → α)
    (h : Shape.Concatenates [A, B] t ax) : t.Idx → α :=
  concatenate t ax [⟨A, a⟩, ⟨B, b⟩] h

theorem concat2_intro (t : Shape) (ax : Fin t.rank) (A B : Shape) (a : A.Idx → α) (b : B.Idx → α)
    (h : Shape.Concatenates [A, B] t ax) :
    concatenate t ax [⟨A, a⟩, ⟨B, b⟩] h = concat2 t ax A B a b h := rfl

end Cert.ConcatPair

namespace Idealize.ShloMosaic.StableHlo

/-- What one buffer holds after a literal line of host operations, two-operand concatenations included. -/
macro "after_results_pairs" : tactic =>
  `(tactic| (simp (disch := decide) only [Cert.ConcatPair.concat2_intro, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KernelValue.lean ====
/-
  The idealized kernel's result as one function of its arguments.

  The contents of every buffer at the nine boundaries of @main are a fold from the launch memory: a stretch of
  host operations rewrites the buffers it writes, a kernel region leaves in its output array what its grid
  points wrote back and every other buffer alone. Walking that fold from the launch to the return, each buffer a
  later stage reads is identified with a stage of the reference: the self-looped source and target lists and the
  per-edge coefficients after the first stretch; `x · W1` after the first region; the first aggregate after the
  second stretch; the rectified first layer after the second region; `h · W2` after the third; the second aggregate
  after the third stretch; the second layer after the fourth region; the pooled means after the last stretch; and
  their logistic function — the reference's result — after the last region. The host stretches are the
  reference's own operations on the same operands, so they agree by unfolding; the regions agree by the
  whole-array reading of each (a product of the whole arrays, a bias row added to every row, the rectifier, the
  logistic function). Nothing is asked of the entries.
-/
import proofs.«140642_j80960133529893_1_alg».proof.Proof.Gen.KernelIdeal.Frame
import proofs.«140642_j80960133529893_1_alg».proof.Proof.Gen.ReferenceIdeal.Read
import proofs.«140642_j80960133529893_1_alg».proof.Proof.Region0
import proofs.«140642_j80960133529893_1_alg».proof.Proof.Region1
import proofs.«140642_j80960133529893_1_alg».proof.Proof.Region2
import proofs.«140642_j80960133529893_1_alg».proof.Proof.Region3
import proofs.«140642_j80960133529893_1_alg».proof.Proof.Region4
import proofs.«140642_j80960133529893_1_alg».proof.Proof.RefStages
import proofs.«140642_j80960133529893_1_alg».proof.Proof.LibConcatPair
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.RowLayers Cert.MatProd Cert.GraphLayers
open Cert.ReferenceIdeal.Read Cert.ReferenceIdeal.Stages

variable (m : (ℓ : Loc nD τ sig) → Buf (Elt Ideal) ℓ) (ρ : Dev nD → PrngReg) (c : Dev nD)

/-! ## After the first stretch of host operations (the first region's entry) -/

theorem W1_v5 : W1 m ρ c (Proc.devRef .tc main_v5) = val_main_v3 (F := Ideal) (m ((c : Thread nD τ).loc main_arg1)) := by
  show StableHlo.after hostOps0 (W0 m ρ c) (Proc.devRef .tc main_v5) = _
  after_results_pairs
  rfl
theorem W1_v6 : W1 m ρ c (Proc.devRef .tc main_v6) = val_main_v6 (F := Ideal) (m ((c : Thread nD τ).loc main_arg1)) := by
  show StableHlo.after hostOps0 (W0 m ρ c) (Proc.devRef .tc main_v6) = _
  after_results_pairs
  rfl
theorem W1_v28 : W1 m ρ c (Proc.devRef .tc main_v28) = val_main_v28 (F := Ideal) (m ((c : Thread nD τ).loc main_arg1)) := by
  show StableHlo.after hostOps0 (W0 m ρ c) (Proc.devRef .tc main_v28) = _
  after_results_pairs
  rfl
theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W1_arg3 : W1 m ρ c (Proc.devRef .tc main_arg3) = (m ((c : Thread nD τ).loc main_arg3)) := by
  show StableHlo.after hostOps0 (W0 m ρ c) (Proc.devRef .tc main_arg3) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg5 : W1 m ρ c (Proc.devRef .tc main_arg5) = (m ((c : Thread nD τ).loc main_arg5)) := by
  show StableHlo.after hostOps0 (W0 m ρ c) (Proc.devRef .tc main_arg5) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl

/-! ## After the first region: `x · W1` -/

theorem W2_v29 : W2 m ρ c (Proc.devRef .tc main_v29) = val_main_v29 (F := Ideal) (m ((c : Thread nD τ).loc main_arg0)) (m ((c : Thread nD τ).loc main_arg3)) := by
  refine (W2_arr m ρ c 2).trans ((region0 (V1 m ρ) c).trans ?_)
  rw [v29_eq]
  exact congrArg₂ (prod (a := 100000) (K := 128) (b := 128)) (W1_arg0 m ρ c) (W1_arg3 m ρ c)
theorem W2_v5 : W2 m ρ c (Proc.devRef .tc main_v5) = val_main_v3 (F := Ideal) (m ((c : Thread nD τ).loc main_arg1)) :=
  (W2_of_ne m ρ c main_v5 (by decide)).trans (W1_v5 m ρ c)
theorem W2_v6 : W2 m ρ c (Proc.devRef .tc main_v6) = val_main_v6 (F := Ideal) (m ((c : Thread nD τ).loc main_arg1)) :=
  (W2_of_ne m ρ c main_v6 (by decide)).trans (W1_v6 m ρ c)
theorem W2_v28 : W2 m ρ c (Proc.devRef .tc main_v28) = val_main_v28 (F := Ideal) (m ((c : Thread nD τ).loc main_arg1)) :=
  (W2_of_ne m ρ c main_v28 (by decide)).trans (W1_v28 m ρ c)
theorem W2_arg2 : W2 m ρ c (Proc.devRef .tc main_arg2) = (m ((c : Thread nD τ).loc main_arg2)) :=
  (W2_of_ne m ρ c main_arg2 (by decide)).trans (W1_arg2 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)

/-! ## After the second stretch: the first aggregate, and the bias `b1` viewed as one row -/

theorem W3_v42 : W3 m ρ c (Proc.devRef .tc main_v42) = val_main_v42 (F := Ideal) (m ((c : Thread nD τ).loc main_arg0)) (m ((c : Thread nD τ).loc main_arg1)) (m ((c : Thread nD τ).loc main_arg3)) := by
  show StableHlo.after hostOps1 (W2 m ρ c) (Proc.devRef .tc main_v42) = _
  after_results_simp
  rw [W2_v29 m ρ c, W2_v5 m ρ c, W2_v6 m ρ c, W2_v28 m ρ c]
  rfl
theorem W3_v43 : W3 m ρ c (Proc.devRef .tc main_v43) = shapeCast S1x128 (m ((c : Thread nD τ).loc main_arg4)) shapeCasts_S128_S1x128 := by
  show StableHlo.after hostOps1 (W2 m ρ c) (Proc.devRef .tc main_v43) = _
  after_results_simp
  rw [W2_arg4 m ρ c]
  rfl
theorem W3_v5 : W3 m ρ c (Proc.devRef .tc main_v5) = val_main_v3 (F := Ideal) (m ((c : Thread nD τ).loc main_arg1)) := by
  show StableHlo.after hostOps1 (W2 m ρ c) (Proc.devRef .tc main_v5) = _
  after_results_simp
  exact W2_v5 m ρ c
theorem W3_v6 : W3 m ρ c (Proc.devRef .tc main_v6) = val_main_v6 (F := Ideal) (m ((c : Thread nD τ).loc main_arg1)) := by
  show StableHlo.after hostOps1 (W2 m ρ c) (Proc.devRef .tc main_v6) = _
  after_results_simp
  exact W2_v6 m ρ c
theorem W3_v28 : W3 m ρ c (Proc.devRef .tc main_v28) = val_main_v28 (F := Ideal) (m ((c : Thread nD τ).loc main_arg1)) := by
  show StableHlo.after hostOps1 (W2 m ρ c) (Proc.devRef .tc main_v28) = _
  after_results_simp
  exact W2_v28 m ρ c
theorem W3_arg2 : W3 m ρ c (Proc.devRef .tc main_arg2) = (m ((c : Thread nD τ).loc main_arg2)) := by
  show StableHlo.after hostOps1 (W2 m ρ c) (Proc.devRef .tc main_arg2) = _
  after_results_simp
  exact W2_arg2 m ρ c
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W3_arg6 : W3 m ρ c (Proc.devRef .tc main_arg6) = (m ((c : Thread nD τ).loc main_arg6)) := by
  show StableHlo.after hostOps1 (W2 m ρ c) (Proc.devRef .tc main_arg6) = _
  after_results_simp
  exact W2_arg6 m ρ c

/-! ## After the second region: the first layer, and after the third: `h · W2` -/

theorem W4_v44 : W4 m ρ c (Proc.devRef .tc main_v44) = val_main_v46 (F := Ideal) (m ((c : Thread nD τ).loc main_arg0)) (m ((c : Thread nD τ).loc main_arg1)) (m ((c : Thread nD τ).loc main_arg3)) (m ((c : Thread nD τ).loc main_arg4)) := by
  refine (W4_arr m ρ c 2).trans ((region1 (V3 m ρ) c).trans ?_)
  rw [v46_eq _ _ _ _ shapeCasts_S128_S1x128]
  exact congrArg₂ (fun x b => rectify (Ideal.ofBits .f32 0x00000000#32) (shiftRows (a := 100000) (b := 128) x b))
    (W3_v42 m ρ c) (W3_v43 m ρ c)
theorem W4_v5 : W4 m ρ c (Proc.devRef .tc main_v5) = val_main_v3 (F := Ideal) (m ((c : Thread nD τ).loc main_arg1)) :=
  (W4_of_ne m ρ c main_v5 (by decide)).trans (W3_v5 m ρ c)
theorem W4_v6 : W4 m ρ c (Proc.devRef .tc main_v6) = val_main_v6 (F := Ideal) (m ((c : Thread nD τ).loc main_arg1)) :=
  (W4_of_ne m ρ c main_v6 (by decide)).trans (W3_v6 m ρ c)
theorem W4_v28 : W4 m ρ c (Proc.devRef .tc main_v28) = val_main_v28 (F := Ideal) (m ((c : Thread nD τ).loc main_arg1)) :=
  (W4_of_ne m ρ c main_v28 (by decide)).trans (W3_v28 m ρ c)
theorem W4_arg2 : W4 m ρ c (Proc.devRef .tc main_arg2) = (m ((c : Thread nD τ).loc main_arg2)) :=
  (W4_of_ne m ρ c main_arg2 (by decide)).trans (W3_arg2 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)

theorem W5_v45 : W5 m ρ c (Proc.devRef .tc main_v45) = val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((region2 (V4 m ρ) c).trans ?_)
  rw [v76_eq]
  exact congrArg₂ (prod (a := 100000) (K := 128) (b := 64)) (W4_v44 m ρ c) (W4_arg5 m ρ c)
theorem W5_v5 : W5 m ρ c (Proc.devRef .tc main_v5) = val_main_v3 (F := Ideal) (m ((c : Thread nD τ).loc main_arg1)) :=
  (W5_of_ne m ρ c main_v5 (by decide)).trans (W4_v5 m ρ c)
theorem W5_v6 : W5 m ρ c (Proc.devRef .tc main_v6) = val_main_v6 (F := Ideal) (m ((c : Thread nD τ).loc main_arg1)) :=
  (W5_of_ne m ρ c main_v6 (by decide)).trans (W4_v6 m ρ c)
theorem W5_v28 : W5 m ρ c (Proc.devRef .tc main_v28) = val_main_v28 (F := Ideal) (m ((c : Thread nD τ).loc main_arg1)) :=
  (W5_of_ne m ρ c main_v28 (by decide)).trans (W4_v28 m ρ c)
theorem W5_arg2 : W5 m ρ c (Proc.devRef .tc main_arg2) = (m ((c : Thread nD τ).loc main_arg2)) :=
  (W5_of_ne m ρ c main_arg2 (by decide)).trans (W4_arg2 m ρ c)
theorem W5_arg6 : W5 m ρ c (Proc.devRef .tc main_arg6) = (m ((c : Thread nD τ).loc main_arg6)) :=
  (W5_of_ne m ρ c main_arg6 (by decide)).trans (W4_arg6 m ρ c)

/-! ## After the third stretch: the second aggregate, and the bias `b2` viewed as one row -/

theorem W6_v58 : W6 m ρ c (Proc.devRef .tc main_v58) = val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v58) = _
  after_results_simp
  rw [W5_v45 m ρ c, (W5_v5 m ρ c).trans (v50_eq _).symm, (W5_v6 m ρ c).trans (v53_eq _).symm,
    (W5_v28 m ρ c).trans (v75_eq _).symm]
  rfl
theorem W6_v59 : W6 m ρ c (Proc.devRef .tc main_v59) = shapeCast S1x64 (m ((c : Thread nD τ).loc main_arg6)) shapeCasts_S64_S1x64 := by
  show StableHlo.after hostOps3 (W5 m ρ c) (Proc.devRef .tc main_v59) = _
  after_results_simp
  rw [W5_arg6 m ρ c]
  rfl
theorem W6_arg2 : W6 m ρ c (Proc.devRef .tc main_arg2) = (m ((c : Thread nD τ).loc main_arg2)) := by
  show StableHlo.after hostOps3 (W5 m ρ c) (Proc.devRef .tc main_arg2) = _
  after_results_simp
  exact W5_arg2 m ρ c

/-! ## After the fourth region: the second layer -/

theorem W7_v60 : W7 m ρ c (Proc.devRef .tc main_v60) = val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ((region3 (V6 m ρ) c).trans ?_)
  rw [v92_eq _ _ _ _ _ _ shapeCasts_S64_S1x64]
  exact congrArg₂ (shiftRows (a := 100000) (b := 64)) (W6_v58 m ρ c) (W6_v59 m ρ c)
theorem W7_arg2 : W7 m ρ c (Proc.devRef .tc main_arg2) = (m ((c : Thread nD τ).loc main_arg2)) :=
  (W7_of_ne m ρ c main_arg2 (by decide)).trans (W6_arg2 m ρ c)

/-! ## After the last stretch: the pooled means; after the last region: their logistic function -/

theorem W8_v72 : W8 m ρ c (Proc.devRef .tc main_v72) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v72) = _
  after_results_simp
  rw [W7_v60 m ρ c, W7_arg2 m ρ c]
  rfl

/-- THE KERNEL'S RESULT: the last boundary's contents of the result buffer are the reference's last stage of the
    launch arguments. -/
theorem W9_v73 : W9 m ρ c (Proc.devRef .tc main_v73) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 1).trans ((region4 (V8 m ρ) c).trans ?_)
  rw [v110_eq]
  exact congrArg (sigmoid (a := 64) (b := 64)) (W8_v72 m ρ c)

end Cert.KernelIdeal.Whole

end
-- ==== Proof.lean ====
/-
  A two-layer graph convolution with self-loops and symmetric degree normalisation, mean-pooled per graph and
  passed through the logistic function, computed two ways over the extended reals.

  Both programs build the self-looped edge list, the degrees, the per-edge coefficients
  `deg^(-1/2)[source] · deg^(-1/2)[target]`, and for each layer gather the transformed rows at the sources, scale
  them, and scatter-add them at the targets; both then sum the node rows per graph, divide by the node counts
  and apply `1 / (1 + e^(-x))`. They differ only in how the dense pieces are computed. The kernel computes
  `x · W` in ten tiles of ten thousand rows, each a product into a zero accumulator after a change of float
  format (the identity on extended reals); entry `(r, q)` of a product reads row `r` of the left factor only, so
  the tiles are the rows of the one product the reference computes. It adds the bias row and rectifies in the
  same ten tiles, where the reference adds a broadcast bias vector to the whole array and takes the maximum with
  zero; and it applies one logistic operation where the reference writes `1 / (1 + exp (-x))` out. Every one of
  these is the same function entry by entry, with no condition on the entries, so the two results are equal at
  every extended-real input and finiteness of the inputs is never used.
-/
import proofs.«140642_j80960133529893_1_alg».proof.Defs
import proofs.«140642_j80960133529893_1_alg».proof.Proof.Gen.Kernel
import proofs.«140642_j80960133529893_1_alg».proof.Proof.Gen.Kernel.Frame
import proofs.«140642_j80960133529893_1_alg».proof.Proof.Gen.KernelIdeal
import proofs.«140642_j80960133529893_1_alg».proof.Proof.Gen.KernelIdeal.Frame
import proofs.«140642_j80960133529893_1_alg».proof.Proof.Gen.ReferenceIdeal
import proofs.«140642_j80960133529893_1_alg».proof.Proof.Gen.Pre_finite_inputs
import proofs.«140642_j80960133529893_1_alg».proof.Proof.Gen.ReferenceIdeal.Run
import proofs.«140642_j80960133529893_1_alg».proof.Proof.Gen.ReferenceIdeal.Read
import proofs.«140642_j80960133529893_1_alg».proof.Proof.KernelRun
import proofs.«140642_j80960133529893_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the reference's last stage of the common arguments in their
    result buffers: the kernel by the walk through its nine boundaries, the reference by its own run. -/
theorem algebraic : Cert.algebraic_KernelIdeal_ReferenceIdeal := by
  intro m ρ m' ρ' _ hagree
  refine ⟨fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.W9_v73 m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v110_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
